-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x8192 .f32) (main_arg1 : FVec F S1024x8192 .f32) (main_arg2 : FVec F S1024x8192 .f32) (main_arg3 : FVec F S1024 .f32) (main_arg4 : FVec F S1024x1024 .f32) (main_arg5 : FVec F S1024 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S1x1024 : Shape := ⟨2, ![1, 1024]⟩
abbrev S2048x1024 : Shape := ⟨2, ![2048, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x8192.size a
  hwx0_0 : ∀ i : grid0.Coords, EltTy.bits .f32 = 32 ∨ (Rect.block (s := S2048x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .f32 = 32 ∨ (Rect.block (s := S1024x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x8192.size a
  hwx0_2 : ∀ i : grid0.Coords, EltTy.bits .f32 = 32 ∨ (Rect.block (s := S1024x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S2048x1024.size a
  hwx0_6 : ∀ i : grid0.Coords, EltTy.bits .f32 = 32 ∨ (Rect.block (s := S2048x1024) S1024x1024.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S1024x8192 : Shape := ⟨2, ![1024, 8192]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S1024x8192, .f32⟩
  | .hbm, ⟨2, _⟩ => ⟨S1024x8192, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x8192, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x8192_S1024x8192_S2048x1024_1_1_0_0_n_n_wf : DotDims.WF S2048x8192 S1024x8192 S2048x1024 [1] [1] [0] [0] [] []
  dot_S2048x1024_S1024x1024_S2048x1024_1_0_0_1_n_n_wf : DotDims.WF S2048x1024 S1024x1024 S2048x1024 [1] [0] [0] [1] [] []

variable [Facts₀]

def dot_S2048x8192_S1024x8192_S2048x1024_1_1_0_0_n_n : DotDims S2048x8192 S1024x8192 S2048x1024 where
  lhsContracting := [1]
  rhsContracting := [1]
  lhsNonContracting := [0]
  rhsNonContracting := [0]
  lhsBatch := []
  rhsBatch := []
  wf := dot_S2048x8192_S1024x8192_S2048x1024_1_1_0_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.Spec.lean ====
/-
  The masked two-layer perceptron, as one function of its six argument arrays over the extended reals.

  For a batch row r and a hidden unit o the pre-activation is the inner product of row r of the input with row o of
  the masked weights (mask times weight, entry by entry) plus the first bias at o. The result at (r, q) is the sum over
  the hidden units o of max(pre-activation, 0) times the second weight at (o, q), plus the second bias at q.
-/
import Idealize.ShloMosaic.PureOps.Ideal
import Idealize.ShloMosaic.Lib.ValueIdx

noncomputable section

open scoped BigOperators

namespace Cert.MaskedMlp

open Idealize.ShloMosaic Idealize.ShloMosaic.ValueIdx

/-- The pre-activation of hidden unit `o` on batch row `r`: the inner product over the 8192 input features of the
    input row with the masked weight row, plus the first bias. -/
def hidden (x : (⟨2, ![2048, 8192]⟩ : Shape).Idx → EReal) (s th : (⟨2, ![1024, 8192]⟩ : Shape).Idx → EReal)
    (b : (⟨1, ![1024]⟩ : Shape).Idx → EReal) (r : Fin 2048) (o : Fin 1024) : EReal :=
  (∑ k : Fin 8192, x (ix2 r k) * (s (ix2 o k) * th (ix2 o k))) + b (ix1 o)

/-- The result at row `r`, column `q`: the rectified pre-activations of row `r` times column `q` of the second
    weight, summed over the 1024 hidden units, plus the second bias at `q`. -/
def outAt (x : (⟨2, ![2048, 8192]⟩ : Shape).Idx → EReal) (s th : (⟨2, ![1024, 8192]⟩ : Shape).Idx → EReal)
    (b : (⟨1, ![1024]⟩ : Shape).Idx → EReal) (w : (⟨2, ![1024, 1024]⟩ : Shape).Idx → EReal)
    (b2 : (⟨1, ![1024]⟩ : Shape).Idx → EReal) (r : Fin 2048) (q : Fin 1024) : EReal :=
  (∑ o : Fin 1024, max (hidden x s th b r o) 0 * w (ix2 o q)) + b2 (ix1 q)

/-- The whole result array. -/
def out (x : (⟨2, ![2048, 8192]⟩ : Shape).Idx → EReal) (s th : (⟨2, ![1024, 8192]⟩ : Shape).Idx → EReal)
    (b : (⟨1, ![1024]⟩ : Shape).Idx → EReal) (w : (⟨2, ![1024, 1024]⟩ : Shape).Idx → EReal)
    (b2 : (⟨1, ![1024]⟩ : Shape).Idx → EReal) : (⟨2, ![2048, 1024]⟩ : Shape).Idx → EReal := fun i =>
  outAt x s th b w b2 ⟨(i 0).val, idx2_lt0 i⟩ ⟨(i 1).val, idx2_lt1 i⟩

end Cert.MaskedMlp

end
-- ==== Proof.RefIsSpec.lean ====
/-
  The reference program computes the masked perceptron of Spec.lean.

  Read one operation at a time, the reference's result at (r, q) is: the second product's sum over the hidden units o of
  max(first product at (r, o) + first bias at o, 0) times the second weight at (o, q), plus the second bias at q; and
  the first product at (r, o) is the sum over the features k of the input at (r, k) times mask times weight at (o, k).
  That is the specification, term for term, once the composed index maps of the two broadcasts and the two products
  are written by coordinates.
-/
import proofs.«173007_j52338471469275_2_alg».proof.Proof.Gen.ReferenceIdeal.Read
import proofs.«173007_j52338471469275_2_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx

/-- The row of the input that the second product's left operand index (r, o) reads in the first product. -/
theorem lidx_first (i : S2048x1024.Idx) (k : Fin 1024) (k' : Fin 8192) :
    lidx_main_v1 (lidx_main_v6 i k) k' = ix2 (⟨(i 0).val, idx2_lt0 i⟩ : Fin 2048) k' :=
  funext fun a => Fin.ext (by match a with | ⟨0, _⟩ => rfl | ⟨1, _⟩ => rfl)

/-- The masked-weight row it reads: hidden unit `k`. -/
theorem ridx_first (i : S2048x1024.Idx) (k : Fin 1024) (k' : Fin 8192) :
    ridx_main_v1 (lidx_main_v6 i k) k' = ix2 k k' :=
  funext fun a => Fin.ext (by match a with | ⟨0, _⟩ => rfl | ⟨1, _⟩ => rfl)

/-- The first bias is read at the hidden unit. -/
theorem idx_bias (i : S2048x1024.Idx) (k : Fin 1024) :
    idx_main_v2 (idx_main_v3 (lidx_main_v6 i k)) = ix1 k :=
  funext fun a => Fin.ext (by match a with | ⟨0, _⟩ => rfl)

/-- The second weight is read at (hidden unit, result column). -/
theorem ridx_second (i : S2048x1024.Idx) (k : Fin 1024) :
    ridx_main_v6 i k = ix2 k (⟨(i 1).val, idx2_lt1 i⟩ : Fin 1024) :=
  funext fun a => Fin.ext (by match a with | ⟨0, _⟩ => rfl | ⟨1, _⟩ => rfl)

/-- The second bias is read at the result column. -/
theorem idx_bias2 (i : S2048x1024.Idx) :
    idx_main_v7 (idx_main_v8 i) = ix1 (⟨(i 1).val, idx2_lt1 i⟩ : Fin 1024) :=
  funext fun a => Fin.ext (by match a with | ⟨0, _⟩ => rfl)

/-- The reference's last stage is the specification. -/
theorem ref_eq (x0 : (⟨S2048x8192, .f32⟩ : BufTy).Contents (Elt Ideal)) (x1 x2 : (⟨S1024x8192, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) :
    val_main_v9 (F := Ideal) x0 x1 x2 x3 x4 x5 = Cert.MaskedMlp.out x0 x1 x2 x3 x4 x5 := by
  funext i
  rw [val_main_v9_apply, val_main_v6_apply, val_main_v8_apply, val_main_v7_apply]
  simp only [val_main_v5_apply, val_main_v4_apply, val_main_v1_apply, val_main_v0_apply, val_main_v3_apply,
    val_main_v2_apply, val_main_call0_v0_apply, val_main_call0_cst_apply, Ideal.addf_def, Ideal.mulf_def,
    Ideal.maximumf_def, Ideal.ofBits_def, Ideal.ofBits_zero_f32, lidx_first, ridx_first, idx_bias, ridx_second, idx_bias2]
  rfl

end Cert.ReferenceIdeal.RefSpec

end
-- ==== Proof.Payload.lean ====
/-
  The three values the kernel body stores, read at one element over the extended reals.

  The body keeps a 1024 × 1024 block of partial pre-activations. Its first store writes zeros. Its second adds to the
  block, at (p, q), the inner product over one tile of 1024 features of input row p with masked-weight row q (the
  matrix unit contracts the feature axis of both operands; the changes of float format are the identity, and a product
  into a zero accumulator is the plain sum). Its third, at the last tile, replaces the block at (p, q) by the sum
  over the hidden units o of max(block at (p, o) + first bias at o, 0) times second weight at (o, q), plus the second
  bias at q.
-/
import proofs.«173007_j52338471469275_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The dimension numbers of the first product: both operands contract their second axis. -/
abbrev dotRowRow : DotDims S1024x1024 S1024x1024 S1024x1024 := dot_S1024x1024_S1024x1024_S1024x1024_1_1_0_0_n_n
/-- The dimension numbers of the second product: rows times columns. -/
abbrev dotRowCol : DotDims S1024x1024 S1024x1024 S1024x1024 := dot_S1024x1024_S1024x1024_S1024x1024_1_0_0_1_n_n

theorem rowRow_lhs0 (i : S1024x1024.Idx) (q : dotRowRow.contr.Idx) : (dotRowRow.lhsIdx i q 0).val = (i 0).val := by
  unfold DotDims.lhsIdx
  rw [dif_neg (show ¬(0 : Fin S1024x1024.rank) ∈ dotRowRow.lhsBatch by decide),
    dif_pos (show (0 : Fin S1024x1024.rank) ∈ dotRowRow.lhsNonContracting by decide)]
  rfl
theorem rowRow_rhs0 (i : S1024x1024.Idx) (q : dotRowRow.contr.Idx) : (dotRowRow.rhsIdx i q 0).val = (i 1).val := by
  unfold DotDims.rhsIdx
  rw [dif_neg (show ¬(0 : Fin S1024x1024.rank) ∈ dotRowRow.rhsBatch by decide),
    dif_pos (show (0 : Fin S1024x1024.rank) ∈ dotRowRow.rhsNonContracting by decide)]
  rfl
theorem rowCol_lhs0 (i : S1024x1024.Idx) (q : dotRowCol.contr.Idx) : (dotRowCol.lhsIdx i q 0).val = (i 0).val := by
  unfold DotDims.lhsIdx
  rw [dif_neg (show ¬(0 : Fin S1024x1024.rank) ∈ dotRowCol.lhsBatch by decide),
    dif_pos (show (0 : Fin S1024x1024.rank) ∈ dotRowCol.lhsNonContracting by decide)]
  rfl
theorem rowCol_rhs1 (i : S1024x1024.Idx) (q : dotRowCol.contr.Idx) : (dotRowCol.rhsIdx i q 1).val = (i 1).val := by
  unfold DotDims.rhsIdx
  rw [dif_neg (show ¬(1 : Fin S1024x1024.rank) ∈ dotRowCol.rhsBatch by decide),
    dif_pos (show (1 : Fin S1024x1024.rank) ∈ dotRowCol.rhsNonContracting by decide)]
  rfl

/-- The first product into a zero accumulator, at (p, q): the inner product of row p of the left operand with row q of
    the right one. -/
theorem rowRow_apply (l r : FVec Ideal S1024x1024 .bf16) (p q : Fin 1024) :
    matmul dotRowRow none l r (constant S1024x1024 .f32 0x00000000#32) (ix2 p q) = ∑ k : Fin 1024, l (ix2 p k) * r (ix2 q k) := by
  simp only [matmul]
  rw [Ideal.matmul_constant_zero_apply, ← Equiv.sum_comp (contrEquiv1 dotRowRow 1024 rfl rfl).symm]
  refine Finset.sum_congr rfl fun k _ => ?_
  have hk := contrEquiv1_symm_val dotRowRow 1024 rfl rfl k
  have el : dotRowRow.lhsIdx (ix2 p q) ((contrEquiv1 dotRowRow 1024 rfl rfl).symm k) = ix2 p k := funext fun a => Fin.ext (by
    match a with
    | ⟨0, _⟩ => exact rowRow_lhs0 _ _
    | ⟨1, _⟩ => exact (dotRowRow.lhsIdx_val_of_single rfl _ _).trans hk)
  have er : dotRowRow.rhsIdx (ix2 p q) ((contrEquiv1 dotRowRow 1024 rfl rfl).symm k) = ix2 q k := funext fun a => Fin.ext (by
    match a with
    | ⟨0, _⟩ => exact rowRow_rhs0 _ _
    | ⟨1, _⟩ => exact (dotRowRow.rhsIdx_val_of_single rfl _ _).trans hk)
  rw [el, er]

/-- The second product into a zero accumulator, at (p, q): row p of the left operand times column q of the right one. -/
theorem rowCol_apply (l r : FVec Ideal S1024x1024 .bf16) (p q : Fin 1024) :
    matmul dotRowCol none l r (constant S1024x1024 .f32 0x00000000#32) (ix2 p q) = ∑ k : Fin 1024, l (ix2 p k) * r (ix2 k q) := by
  simp only [matmul]
  rw [Ideal.matmul_constant_zero_apply, ← Equiv.sum_comp (contrEquiv1 dotRowCol 1024 rfl rfl).symm]
  refine Finset.sum_congr rfl fun k _ => ?_
  have hk := contrEquiv1_symm_val dotRowCol 1024 rfl rfl k
  have el : dotRowCol.lhsIdx (ix2 p q) ((contrEquiv1 dotRowCol 1024 rfl rfl).symm k) = ix2 p k := funext fun a => Fin.ext (by
    match a with
    | ⟨0, _⟩ => exact rowCol_lhs0 _ _
    | ⟨1, _⟩ => exact (dotRowCol.lhsIdx_val_of_single rfl _ _).trans hk)
  have er : dotRowCol.rhsIdx (ix2 p q) ((contrEquiv1 dotRowCol 1024 rfl rfl).symm k) = ix2 k q := funext fun a => Fin.ext (by
    match a with
    | ⟨0, _⟩ => exact (dotRowCol.rhsIdx_val_of_single rfl _ _).trans hk
    | ⟨1, _⟩ => exact rowCol_rhs1 _ _)
  rw [el, er]

/-- The block of zeros the first grid step of a run starts from. -/
theorem zeros_apply (y : S1024x1024.Idx) : k0_pay1 (F := Ideal) y = 0 := by
  unfold k0_pay1
  exact Ideal.ofBits_zero_f32

/-- One accumulation step at (p, q): what was there plus this tile's inner product of input row p and masked-weight
    row q. -/
theorem accumulate_apply (x s th acc : Vec Ideal S1024x1024 .f32) (p q : Fin 1024) :
    k0_pay2 x s th acc (ix2 p q) = acc (ix2 p q) + ∑ k : Fin 1024, x (ix2 p k) * (s (ix2 q k) * th (ix2 q k)) := by
  unfold k0_pay2
  rw [addf_apply, shapeCast_self, rowRow_apply]
  rfl

/-- The last step at (p, q): the second layer applied to the rectified, biased block. -/
theorem finish_apply (acc : Vec Ideal S1024x1024 .f32) (b : Vec Ideal S1x1024 .f32) (w : Vec Ideal S1024x1024 .f32)
    (b2 : Vec Ideal S1x1024 .f32) (p q : Fin 1024) :
    k0_pay3 acc b w b2 (ix2 p q)
      = (∑ o : Fin 1024, max (acc (ix2 p o) + b (ix2 (0 : Fin 1) o)) 0 * w (ix2 o q)) + b2 (ix2 (0 : Fin 1) q) := by
  unfold k0_pay3
  rw [addf_apply, rowCol_apply, shapeCast_self, shapeCast_self, shapeCast_self, broadcastTo_1b_ab_apply]
  refine congrArg (· + _) (Finset.sum_congr rfl fun o _ => ?_)
  rw [truncf_apply, truncf_apply, maximumf_apply, addf_apply, broadcastTo_1b_ab_apply, broadcast_apply]
  show max _ (Ideal.ofBits .f32 0x00000000#32) * _ = _
  rw [Ideal.ofBits_zero_f32]

end Cert.KernelIdeal.Payload

end
-- ==== Proof.Blocks.lean ====
/-
  The blocks the kernel body finds in its input windows, read at one element of the argument arrays.

  The grid has 2 × 8 points; point t handles batch tile t / 8 and feature tile t % 8. There the input window holds rows
  1024·(t / 8) … of the input and columns 1024·(t % 8) … of its features; the mask and weight windows hold all 1024
  rows and the same 1024 feature columns; the two bias windows hold the biases as a single row (the host reshapes each
  bias vector to one row before the call); the second weight's window holds the whole matrix.
-/
import proofs.«173007_j52338471469275_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block each input window holds at point `t`, by its block coordinates: decided over the sixteen points. -/
theorem index_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The first bias as the region finds it: the bias vector laid out as one row. -/
theorem bias_row (c : Dev nD) :
    (V m c main_v0 : S1x1024.Idx → Elt F .f32) = shapeCast S1x1024 (m ((c : Thread nD τ).loc main_arg3)) shapeCasts_S1024_S1x1024 := by
  dsimp only [V, hostOps0]
  after_results
  rfl

/-- The second bias likewise. -/
theorem bias2_row (c : Dev nD) :
    (V m c main_v1 : S1x1024.Idx → Elt F .f32) = shapeCast S1x1024 (m ((c : Thread nD τ).loc main_arg5)) shapeCasts_S1024_S1x1024 := by
  dsimp only [V, hostOps0]
  after_results
  rfl

/-- The input window at point `t`, element (p, w): the input at row 1024·(t / 8) + p, feature 1024·(t % 8) + w. -/
theorem input_blk (c : Dev nD) (t : Fin cfg0.N) (p w : Fin 1024) (R : Fin 2048) (K : Fin 8192)
    (hR : R.val = 1024 * (t.val / 8) + p.val) (hK : K.val = 1024 * (t.val % 8) + w.val) :
    (iblk m c 0 t : Vec F S1024x1024 .f32) (ix2 p w) = m ((c : Thread nD τ).loc main_arg0) (ix2 R K) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * w.val = K.val; rw [e1, hK]; omega

/-- The mask window at point `t`, element (q, w): the mask at hidden unit q, feature 1024·(t % 8) + w. -/
theorem mask_blk (c : Dev nD) (t : Fin cfg0.N) (q w : Fin 1024) (K : Fin 8192)
    (hK : K.val = 1024 * (t.val % 8) + w.val) :
    (iblk m c 1 t : Vec F S1024x1024 .f32) (ix2 q w) = m ((c : Thread nD τ).loc main_arg1) (ix2 q K) := by
  obtain ⟨-, -, e0, e1, -⟩ := index_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * q.val = q.val; rw [e0]; omega
  | ⟨1, _⟩ => show win0_1.index t (1 : Fin 2) * 1024 + 1 * w.val = K.val; rw [e1, hK]; omega

/-- The weight window at point `t`, element (q, w): the weight at hidden unit q, feature 1024·(t % 8) + w. -/
theorem weight_blk (c : Dev nD) (t : Fin cfg0.N) (q w : Fin 1024) (K : Fin 8192)
    (hK : K.val = 1024 * (t.val % 8) + w.val) :
    (iblk m c 2 t : Vec F S1024x1024 .f32) (ix2 q w) = m ((c : Thread nD τ).loc main_arg2) (ix2 q K) := by
  obtain ⟨-, -, -, -, e0, e1, -⟩ := index_facts t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * q.val = q.val; rw [e0]; omega
  | ⟨1, _⟩ => show win0_2.index t (1 : Fin 2) * 1024 + 1 * w.val = K.val; rw [e1, hK]; omega

/-- The first bias window, element (0, o): the first bias at o. -/
theorem bias_blk (c : Dev nD) (t : Fin cfg0.N) (o : Fin 1024) :
    (iblk m c 3 t : Vec F S1x1024 .f32) (ix2 (0 : Fin 1) o) = m ((c : Thread nD τ).loc main_arg3) (ix1 o) := by
  obtain ⟨-, -, -, -, -, -, e0, e1, -⟩ := index_facts t
  unfold iblk
  rw [View.read_apply]
  show V m c main_v0 _ = _
  rw [bias_row]
  refine (congrArg _ (funext fun a => Fin.ext ?_)).trans (shapeCast_a_1a_apply _ shapeCasts_S1024_S1x1024 (0 : Fin 1) o)
  match a with
  | ⟨0, _⟩ => show win0_3.index t (0 : Fin 2) * 1 + 1 * 0 = 0; rw [e0]
  | ⟨1, _⟩ => show win0_3.index t (1 : Fin 2) * 1024 + 1 * o.val = o.val; rw [e1]; omega

/-- The second weight's window, element (o, q): the second weight at (o, q). -/
theorem weight2_blk (c : Dev nD) (t : Fin cfg0.N) (o q : Fin 1024) :
    (iblk m c 4 t : Vec F S1024x1024 .f32) (ix2 o q) = m ((c : Thread nD τ).loc main_arg4) (ix2 o q) := by
  obtain ⟨-, -, -, -, -, -, -, -, e0, e1, -⟩ := index_facts t
  unfold iblk
  rw [View.read_apply]
  show V m c main_arg4 _ = _
  rw [V_main_arg4]
  refine congrArg _ (funext fun a => Fin.ext ?_)
  match a with
  | ⟨0, _⟩ => show win0_4.index t (0 : Fin 2) * 1024 + 1 * o.val = o.val; rw [e0]; omega
  | ⟨1, _⟩ => show win0_4.index t (1 : Fin 2) * 1024 + 1 * q.val = q.val; rw [e1]; omega

/-- The second bias window, element (0, q): the second bias at q. -/
theorem bias2_blk (c : Dev nD) (t : Fin cfg0.N) (q : Fin 1024) :
    (iblk m c 5 t : Vec F S1x1024 .f32) (ix2 (0 : Fin 1) q) = m ((c : Thread nD τ).loc main_arg5) (ix1 q) := by
  obtain ⟨-, -, -, -, -, -, -, -, -, -, e0, e1⟩ := index_facts t
  unfold iblk
  rw [View.read_apply]
  show V m c main_v1 _ = _
  rw [bias2_row]
  refine (congrArg _ (funext fun a => Fin.ext ?_)).trans (shapeCast_a_1a_apply _ shapeCasts_S1024_S1x1024 (0 : Fin 1) q)
  match a with
  | ⟨0, _⟩ => show win0_5.index t (0 : Fin 2) * 1 + 1 * 0 = 0; rw [e0]
  | ⟨1, _⟩ => show win0_5.index t (1 : Fin 2) * 1024 + 1 * q.val = q.val; rw [e1]; omega

end Cert.KernelIdeal.Blocks

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.Fold.lean ====
/-
  The kernel's result array is the masked perceptron of Spec.lean.

  A run of eight consecutive grid points handles one batch tile of 1024 rows. Its first point starts the output block
  from zeros and adds feature tile 0's share of every pre-activation; each later point adds its own feature tile's
  share; the last point also applies the bias, the rectification and the second layer. Addition on the extended reals
  is associative and commutative (no cancellation or distribution is used, so infinite entries need no care), hence the
  eight shares, each a sum over 1024 consecutive features, add up to the sum over all 8192 features: the block the last
  point finishes from holds the first product of the specification, and what it stores is the specification.
-/
import proofs.«173007_j52338471469275_2_alg».proof.Proof.Gen.KernelIdeal.Value
import proofs.«173007_j52338471469275_2_alg».proof.Proof.Payload
import proofs.«173007_j52338471469275_2_alg».proof.Proof.Blocks
import proofs.«173007_j52338471469275_2_alg».proof.Proof.Spec
import proofs.«173007_j52338471469275_2_alg».proof.Proof.LibTileSum

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Idealize.ShloMosaic.TileSum

variable (m : (ℓ : Loc nD τ sig) → Buf (Elt Ideal) ℓ)

theorem feat_pos : 0 < 8192 := by decide
theorem feat_tiles : 8 * 1024 = 8192 := by decide

/-- Row `p` of batch tile `r`. -/
def batchRow (r : Fin 2) (p : Fin 1024) : Fin 2048 :=
  ⟨1024 * r.val + p.val, by have := r.isLt; have := p.isLt; omega⟩

/-- The input array. -/
abbrev input (c : Dev nD) : S2048x8192.Idx → EReal := m ((c : Thread nD τ).loc main_arg0)
/-- The mask array. -/
abbrev mask (c : Dev nD) : S1024x8192.Idx → EReal := m ((c : Thread nD τ).loc main_arg1)
/-- The first weight array. -/
abbrev weight (c : Dev nD) : S1024x8192.Idx → EReal := m ((c : Thread nD τ).loc main_arg2)

/-- One feature's term of a pre-activation: input at (R, K) times mask times weight at (o, K). -/
def term (c : Dev nD) (R : Fin 2048) (o : Fin 1024) (K : Fin 8192) : EReal :=
  input m c (ix2 R K) * (mask m c (ix2 o K) * weight m c (ix2 o K))

/-- Feature tile `j`'s share of the pre-activation: the terms of its 1024 features. -/
def tileSum (c : Dev nD) (R : Fin 2048) (o : Fin 1024) (j : ℕ) : EReal :=
  ∑ w : Fin 1024, term m c R o (posN feat_pos j w)

/-- What grid point `n` adds to the block of batch tile `r` at element `y`: the share of feature tile `n % 8`. -/
def addend (c : Dev nD) (r : Fin 2) (n : ℕ) (y : S1024x1024.Idx) : EReal :=
  tileSum m c (batchRow r ⟨(y 0).val, idx2_lt0 y⟩) ⟨(y 1).val, idx2_lt1 y⟩ (n % 8)

/-- The accumulation step at a point `n` of batch tile `r`'s run adds that point's share. -/
theorem accumulate_point (c : Dev nD) (r : Fin 2) (n : ℕ) (h : n < cfg0.N) (hn : n / 8 = r.val)
    (acc : Vec Ideal S1024x1024 .f32) (y : S1024x1024.Idx) :
    k0_pay2 (iblk m c 0 ⟨n, h⟩) (iblk m c 1 ⟨n, h⟩) (iblk m c 2 ⟨n, h⟩) acc y = acc y + addend m c r n y := by
  obtain ⟨p, q, rfl⟩ : ∃ (p q : Fin 1024), y = ix2 p q := ⟨y 0, y 1, eq_ix2 y⟩
  refine (Payload.accumulate_apply (iblk m c 0 ⟨n, h⟩) (iblk m c 1 ⟨n, h⟩) (iblk m c 2 ⟨n, h⟩) acc p q).trans ?_
  refine congrArg (acc (ix2 p q) + ·) ?_
  show _ = ∑ w : Fin 1024, term m c (batchRow r p) q (posN feat_pos (n % 8) w)
  refine Finset.sum_congr rfl fun w _ => ?_
  have hK : (posN feat_pos (n % 8) w : Fin 8192).val = 1024 * (n % 8) + w.val :=
    posN_val feat_tiles feat_pos (n % 8) (Nat.mod_lt _ (by decide)) w
  rw [Blocks.input_blk m c ⟨n, h⟩ p w (batchRow r p) (posN feat_pos (n % 8) w)
      (by show 1024 * r.val + p.val = 1024 * (n / 8) + p.val; rw [hn]) hK,
    Blocks.mask_blk m c ⟨n, h⟩ q w (posN feat_pos (n % 8) w) hK,
    Blocks.weight_blk m c ⟨n, h⟩ q w (posN feat_pos (n % 8) w) hK]
  rfl

/-- The first point of the run leaves zero plus its share. -/
theorem reset_point (c : Dev nD) (r : Fin 2) (h : 8 * r.val < cfg0.N) (y : S1024x1024.Idx) :
    Value.reset6 m c (8 * r.val) h y = 0 + addend m c r (8 * r.val) y := by
  unfold Value.reset6
  refine (accumulate_point m c r (8 * r.val) h (by omega) (k0_pay1 (F := Ideal)) y).trans ?_
  rw [Payload.zeros_apply]

/-- Each of the next six points adds its share to what the point before left. -/
theorem step_point (c : Dev nD) (r : Fin 2) (n : ℕ) (h : n < cfg0.N) (acc : Vec Ideal S1024x1024 .f32)
    (y : S1024x1024.Idx) (h1 : 8 * r.val < n) (h2 : n ≤ 8 * r.val + 6) :
    Value.step6 m c n h acc y = acc y + addend m c r n y := by
  unfold Value.step6
  rw [if_pos (⟨by omega, by omega⟩ : ¬n % 8 = 0 ∧ ¬n % 8 = 7)]
  exact accumulate_point m c r n h (by omega) acc y

/-- After the run's first seven points the block holds zero plus the seven shares. -/
theorem partial_fold (c : Dev nD) (r : Fin 2) (h : 8 * r.val + 6 < cfg0.N) (y : S1024x1024.Idx) :
    Pipeline.accAt (Value.reset6 m c) (Value.step6 m c) (8 * r.val) 6 h y
      = 0 + ∑ s ∈ Finset.range 7, addend m c r (8 * r.val + s) y :=
  Pipeline.accAt_add_apply (Value.reset6 m c) (Value.step6 m c) (fun _ => (0 : EReal)) (addend m c r) (8 * r.val) 6
    (fun h y => reset_point m c r h y) (fun n h acc y h1 h2 => step_point m c r n h acc y h1 h2) 6 le_rfl h y

/-- The eight shares of a run add up to the sum over all 8192 features. -/
theorem shares_total (c : Dev nD) (r : Fin 2) (p o : Fin 1024) :
    (0 + ∑ s ∈ Finset.range 7, addend m c r (8 * r.val + s) (ix2 p o)) + addend m c r (8 * r.val + 7) (ix2 p o)
      = ∑ K : Fin 8192, term m c (batchRow r p) o K := by
  refine (run_succ (0 : EReal) (fun s => addend m c r (8 * r.val + s) (ix2 p o)) 7).trans ?_
  rw [zero_add, ← sum_range_tiles feat_tiles feat_pos (term m c (batchRow r p) o)]
  refine Finset.sum_congr rfl fun s hs => ?_
  have hs' : s < 8 := Finset.mem_range.mp hs
  show tileSum m c (batchRow r p) o ((8 * r.val + s) % 8) = _
  rw [Nat.mul_add_mod, Nat.mod_eq_of_lt hs']
  rfl

/-- The run's last point accumulates its share and then applies the second layer. -/
theorem last_point (c : Dev nD) (n : ℕ) (h : n < cfg0.N) (hn : n % 8 = 7) (acc : Vec Ideal S1024x1024 .f32) :
    Value.step6 m c n h acc
      = k0_pay3 (k0_pay2 (iblk m c 0 ⟨n, h⟩) (iblk m c 1 ⟨n, h⟩) (iblk m c 2 ⟨n, h⟩) acc)
          (iblk m c 3 ⟨n, h⟩) (iblk m c 4 ⟨n, h⟩) (iblk m c 5 ⟨n, h⟩) := by
  unfold Value.step6
  rw [if_neg (fun hh => hh.2 hn), if_pos (⟨by omega, hn⟩ : ¬n % 8 = 0 ∧ n % 8 = 7)]

/-- What the run's last point leaves at (p, q): the specification at row p of the batch tile, column q. -/
theorem full_fold (c : Dev nD) (r : Fin 2) (h : 8 * r.val + 7 < cfg0.N) (p q : Fin 1024) :
    Pipeline.accAt (Value.reset6 m c) (Value.step6 m c) (8 * r.val) 7 h (ix2 p q)
      = Cert.MaskedMlp.outAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (batchRow r p) q := by
  rw [Pipeline.accAt_succ, last_point m c (8 * r.val + (6 + 1)) h (by omega)]
  refine (Payload.finish_apply _ (iblk m c 3 ⟨8 * r.val + (6 + 1), h⟩) (iblk m c 4 ⟨8 * r.val + (6 + 1), h⟩)
    (iblk m c 5 ⟨8 * r.val + (6 + 1), h⟩) p q).trans ?_
  unfold Cert.MaskedMlp.outAt
  rw [Blocks.bias2_blk]
  refine congrArg (· + _) (Finset.sum_congr rfl fun o _ => ?_)
  rw [Blocks.bias_blk, Blocks.weight2_blk, accumulate_point m c r _ h (by omega) _ (ix2 p o), partial_fold,
    shares_total]
  rfl

/-- The array the kernel's run leaves is the specification of the argument arrays. -/
theorem result_eq (c : Dev nD) :
    Value.G6 m c = Cert.MaskedMlp.out (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  have hi0 : (i 0).val < 2048 := idx2_lt0 i
  have hi1 : (i 1).val < 1024 := idx2_lt1 i
  have hN : cfg0.N = 16 := N_0
  have hr : Value.run6Of i = (i 0).val / 1024 := by
    show 1 * ((i 0).val / 1024 - 0) + 1 * ((i 1).val / 1024 - 0) = _
    have : (i 1).val / 1024 = 0 := by omega
    omega
  unfold Value.G6
  rw [dif_pos (by rw [hr, hN]; omega)]
  have e : ∀ (b : ℕ) (h : b + 7 < cfg0.N) (r : Fin 2) (h' : 8 * r.val + 7 < cfg0.N), b = 8 * r.val →
      Pipeline.accAt (Value.reset6 m c) (Value.step6 m c) b 7 h
        = Pipeline.accAt (Value.reset6 m c) (Value.step6 m c) (8 * r.val) 7 h' := by
    intro b h r h' hb; subst hb; rfl
  have hl : Value.loc6Of i = ix2 (⟨(i 0).val % 1024, Nat.mod_lt _ (by decide)⟩ : Fin 1024)
      (⟨(i 1).val % 1024, Nat.mod_lt _ (by decide)⟩ : Fin 1024) :=
    funext fun a => by match a with | ⟨0, _⟩ => rfl | ⟨1, _⟩ => rfl
  rw [e _ _ (⟨(i 0).val / 1024, by omega⟩ : Fin 2) (by rw [hN]; show 8 * ((i 0).val / 1024) + 7 < 16; omega) (by rw [hr]),
    hl, full_fold]
  unfold Cert.MaskedMlp.out
  congr 1
  · exact Fin.ext (by show 1024 * ((i 0).val / 1024) + (i 0).val % 1024 = (i 0).val; omega)
  · exact Fin.ext (by show (i 1).val % 1024 = (i 1).val; omega)

end Cert.KernelIdeal.Fold

end
-- ==== Proof.lean ====
/-
  A masked two-layer perceptron computed tile by tile against the plain array formula.

  The kernel splits the 2048 batch rows into two tiles of 1024 and the 8192 input features into eight tiles of 1024.
  For one batch tile it accumulates, feature tile by feature tile, the products of the input rows with the masked
  weight rows (mask times weight, entry by entry) into a block that starts from zeros; after the eighth tile it adds
  the first bias, takes the maximum with zero, multiplies by the second weight matrix and adds the second bias. The
  reference computes the same two products whole. Over the extended reals a change of float format is the identity and
  a matrix product is an exact finite sum, so the two differ only in how the sum over the 8192 features is grouped;
  addition there is associative and commutative, and no other law is used, so the finiteness of the inputs is never
  needed.

  Spec.lean states the result as one function of the six arguments. RefIsSpec.lean reads the reference's run as that
  function; Payload.lean reads the three stored values of the kernel body at an element; Blocks.lean reads the windows'
  blocks as elements of the arguments; Fold.lean adds the eight feature tiles' shares up (LibTileSum.lean is the
  regrouping of a sum into tiles) and concludes that the array the kernel leaves is the same function. The three
  frames are the generated runs; nothing was rewritten by the idealization, so there is nothing to preserve.
-/
import proofs.«173007_j52338471469275_2_alg».proof.Defs
import proofs.«173007_j52338471469275_2_alg».proof.Proof.Gen.Kernel.Frame
import proofs.«173007_j52338471469275_2_alg».proof.Proof.Gen.KernelIdeal.Value
import proofs.«173007_j52338471469275_2_alg».proof.Proof.Gen.Pre_finite_inputs
import proofs.«173007_j52338471469275_2_alg».proof.Proof.Gen.ReferenceIdeal.Run
import proofs.«173007_j52338471469275_2_alg».proof.Proof.RefIsSpec
import proofs.«173007_j52338471469275_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- So does the idealized reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the six arguments both programs end with the masked perceptron of those arguments:
    the kernel's result array is that function (Fold.lean) and so is the reference's last stage (RefIsSpec.lean). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v9_eq _ _ _ _ _ _).trans
    ((Cert.ReferenceIdeal.RefSpec.ref_eq _ _ _ _ _ _).trans (Cert.KernelIdeal.Fold.result_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
